-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x256 .f32) (main_arg3 : FVec F S256 .f32) (main_arg4 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x256, .f32⟩
  | .hbm, ⟨35, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.SageSpec.lean ====
/-
  The graph layer this certificate is about, as mathematics, with no program in sight.

  For a node `r` and an output channel `c`, given the aggregated neighbour features `agg`, the node's own
  features `x`, two weight matrices and a bias row,

      out r c = max (Σₖ agg r k · W_l k c  +  Σₖ x r k · W_r k c  +  b c) 0 .

  The entry depends on row `r` of `agg` and of `x` only, so the same expression describes a block of rows and the
  whole array: it is stated once, over any number `n` of rows. The two programs group the three summands
  differently — (neighbour term + own term) + bias against (neighbour term + bias) + own term — and on the extended
  reals addition is commutative and associative with no side condition, so the two groupings are one value
  (`entryBiasFirst_eq_entry`); no finiteness of the inputs is used anywhere.
-/
import Idealize.ShloMosaic.PureOps.Ideal
import Idealize.ShloMosaic.Lib.ValueIdx

noncomputable section

open scoped BigOperators

namespace Cert.Sage

open Idealize.ShloMosaic Idealize.ShloMosaic.ValueIdx

/-- The neighbour term and the own term: row `r` of a feature matrix against column `c` of a weight matrix. -/
def rowDot {n : Nat} (a : FVec Ideal ⟨2, ![n, 128]⟩ .f32) (w : FVec Ideal ⟨2, ![128, 256]⟩ .f32) (r : Fin n) (c : Fin 256) : EReal :=
  ∑ k : Fin 128, a (ix2 r k) * w (ix2 k c)

/-- One entry of the layer, the summands grouped (neighbour term + own term) + bias, cut off below at the zero word. -/
def entry {n : Nat} (agg x : FVec Ideal ⟨2, ![n, 128]⟩ .f32) (wl wr : FVec Ideal ⟨2, ![128, 256]⟩ .f32) (b : Fin 256 → EReal)
    (r : Fin n) (c : Fin 256) : EReal :=
  max ((rowDot agg wl r c + rowDot x wr r c) + b c) (Ideal.ofBits .f32 0x00000000#32)

/-- The same entry with the summands grouped (neighbour term + bias) + own term. -/
def entryBiasFirst {n : Nat} (agg x : FVec Ideal ⟨2, ![n, 128]⟩ .f32) (wl wr : FVec Ideal ⟨2, ![128, 256]⟩ .f32) (b : Fin 256 → EReal)
    (r : Fin n) (c : Fin 256) : EReal :=
  max ((rowDot agg wl r c + b c) + rowDot x wr r c) (Ideal.ofBits .f32 0x00000000#32)

/-- The two groupings are one value: (p + b) + q = (p + q) + b in any commutative additive monoid, the extended
    reals among them, infinite summands included. -/
theorem entryBiasFirst_eq_entry {n : Nat} (agg x : FVec Ideal ⟨2, ![n, 128]⟩ .f32) (wl wr : FVec Ideal ⟨2, ![128, 256]⟩ .f32)
    (b : Fin 256 → EReal) (r : Fin n) (c : Fin 256) :
    entryBiasFirst agg x wl wr b r c = entry agg x wl wr b r c := by
  unfold entryBiasFirst entry
  rw [add_right_comm]

/-- An entry reads its operands only along row `r` of the two feature matrices, column `c` of the two weight
    matrices and the bias at `c`: operands — possibly feature matrices of different heights — that agree there give
    the same entry. -/
theorem entry_congr {n n' : Nat} (agg x : FVec Ideal ⟨2, ![n, 128]⟩ .f32) (agg' x' : FVec Ideal ⟨2, ![n', 128]⟩ .f32)
    (wl wr wl' wr' : FVec Ideal ⟨2, ![128, 256]⟩ .f32) (b b' : Fin 256 → EReal) (r : Fin n) (r' : Fin n') (c : Fin 256)
    (hagg : ∀ k : Fin 128, agg (ix2 r k) = agg' (ix2 r' k)) (hx : ∀ k : Fin 128, x (ix2 r k) = x' (ix2 r' k))
    (hwl : ∀ k : Fin 128, wl (ix2 k c) = wl' (ix2 k c)) (hwr : ∀ k : Fin 128, wr (ix2 k c) = wr' (ix2 k c)) (hb : b c = b' c) :
    entry agg x wl wr b r c = entry agg' x' wl' wr' b' r' c := by
  unfold entry rowDot
  simp only [hagg, hx, hwl, hwr, hb]

/-- The whole output array: every entry of the layer over the 50000 nodes. -/
def layer (agg x : FVec Ideal ⟨2, ![50000, 128]⟩ .f32) (wl wr : FVec Ideal ⟨2, ![128, 256]⟩ .f32) (b : Fin 256 → EReal) :
    FVec Ideal ⟨2, ![50000, 256]⟩ .f32 :=
  fun i => entry agg x wl wr b (i 0) (i 1)

theorem layer_apply (agg x : FVec Ideal ⟨2, ![50000, 128]⟩ .f32) (wl wr : FVec Ideal ⟨2, ![128, 256]⟩ .f32) (b : Fin 256 → EReal)
    (r : Fin 50000) (c : Fin 256) :
    layer agg x wl wr b (ix2 r c) = entry agg x wl wr b r c := rfl

end Cert.Sage

end
-- ==== Proof.SageBody.lean ====
/-
  What the kernel body stores, entry by entry.

  At a grid point the body loads a 2000-row block of the aggregated features, the matching 2000-row block of the
  node features, both weight matrices whole and the bias row, and stores one 2000 × 256 block. Read on the
  extended reals — where narrowing the operands to sixteen bits changes nothing and a matrix product into a zero
  accumulator is the plain sum over the contraction index — entry (p, q) of that block is

      max (Σₖ a p k · W_l k q  +  Σₖ x p k · W_r k q  +  b 0 q) 0,

  which is `Sage.entry` of the loaded blocks at row `p`, column `q` (`pay_entry`). The only step that is not a
  definitional unfolding is the matrix product: its contraction index is a one-axis index, re-indexed here by its
  single coordinate (`matmul_entry`).
-/
import proofs.«167508_j60911226192365_1_alg».proof.Proof.Gen.KernelIdeal.Skeleton
import proofs.«167508_j60911226192365_1_alg».proof.Proof.SageSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Body

open Cert.KernelIdeal Cert.KernelIdeal.Gen Idealize.ShloMosaic Idealize.ShloMosaic.ValueIdx

/-! ## The operand indices of the block product

For output index (p, q) and contraction coordinate k the left operand is read at (p, k) and the right at (k, q). -/

theorem lhs_row (j : S2000x256.Idx) (s : dot_S2000x128_S128x256_S2000x256_1_0_0_1_n_n.contr.Idx) :
    (dot_S2000x128_S128x256_S2000x256_1_0_0_1_n_n.lhsIdx j s 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

theorem lhs_contr (j : S2000x256.Idx) (s : dot_S2000x128_S128x256_S2000x256_1_0_0_1_n_n.contr.Idx) :
    (dot_S2000x128_S128x256_S2000x256_1_0_0_1_n_n.lhsIdx j s 1).val = (s ⟨0, by decide⟩).val :=
  dot_S2000x128_S128x256_S2000x256_1_0_0_1_n_n.lhsIdx_val_of_single rfl j s

theorem rhs_contr (j : S2000x256.Idx) (s : dot_S2000x128_S128x256_S2000x256_1_0_0_1_n_n.contr.Idx) :
    (dot_S2000x128_S128x256_S2000x256_1_0_0_1_n_n.rhsIdx j s 0).val = (s ⟨0, by decide⟩).val :=
  dot_S2000x128_S128x256_S2000x256_1_0_0_1_n_n.rhsIdx_val_of_single rfl j s

theorem rhs_col (j : S2000x256.Idx) (s : dot_S2000x128_S128x256_S2000x256_1_0_0_1_n_n.contr.Idx) :
    (dot_S2000x128_S128x256_S2000x256_1_0_0_1_n_n.rhsIdx j s 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000-row block times a weight matrix, accumulated into zeros, at entry (p, q): the sum over the 128
    contraction coordinates of the block's row `p` against the matrix's column `q`. -/
theorem matmul_entry (a : FVec Ideal S2000x128 .bf16) (w : FVec Ideal S128x256 .bf16) (p : Fin 2000) (q : Fin 256) :
    matmul dot_S2000x128_S128x256_S2000x256_1_0_0_1_n_n none a w (constant S2000x256 .f32 0x00000000#32) (ix2 p q)
      = ∑ k : Fin 128, a (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun ax => Fin.ext (by
    match ax with
    | ⟨0, _⟩ => exact lhs_row _ _
    | ⟨1, _⟩ => exact (lhs_contr _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun ax => Fin.ext (by
    match ax with
    | ⟨0, _⟩ => exact (rhs_contr _ _).trans hk
    | ⟨1, _⟩ => exact rhs_col _ _)
  rw [el, er]

/-- THE PAYLOAD AT AN ENTRY: what the body stores at (p, q) is the layer's entry computed from the loaded blocks —
    the neighbour block's row `p` against `W_l`, the feature block's row `p` against `W_r`, the bias row at `q`,
    cut off below at zero. -/
theorem pay_entry (a x : Vec Ideal S2000x128 .f32) (wl wr : Vec Ideal S128x256 .f32) (b : Vec Ideal S1x256 .f32)
    (p : Fin 2000) (q : Fin 256) :
    k0_pay1 (F := Ideal) a x wl wr b (ix2 p q)
      = Cert.Sage.entry (n := 2000) a x wl wr (fun c => b (ix2 (0 : Fin 1) c)) p q := by
  unfold k0_pay1
  rw [maximumf_apply, addf_apply, addf_apply, broadcast_apply, matmul_entry, matmul_entry, shapeCast_self, shapeCast_self,
    broadcastTo_1b_ab_apply]
  rfl

end Cert.Sage.Body

end
-- ==== Proof.SageValue.lean ====
/-
  From the blocks to the array.

  The grid has 25 points. Point `t` reads rows 2000·t … 2000·t + 1999 of the aggregated features and of the node
  features, both weight matrices whole and the bias row, and writes rows 2000·t … 2000·t + 1999 of the output. An
  entry of the layer at node `r` reads only row `r` of the two feature arrays, so the block point `t` writes is the
  restriction to its rows of ONE whole-array function, `result`: the layer of the arrays as the call finds them
  (`flushed_eq`). The 25 row blocks tile the 50000 rows — node `r` lies in the block of point r / 2000 (`cover`) —
  hence after the run the output array is `result` (`final`, `run`).
-/
import proofs.«167508_j60911226192365_1_alg».proof.Proof.Gen.KernelIdeal.Value
import proofs.«167508_j60911226192365_1_alg».proof.Proof.SageBody
import proofs.«167508_j60911226192365_1_alg».proof.Proof.SageSpec
import Idealize.ShloMosaic.Lib.Pipeline.Value
import Idealize.ShloMosaic.Lib.ValueIdx

set_option maxRecDepth 16384

noncomputable section

namespace Cert.Sage.Kernel

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The block index of every operand at every grid point, decided over the 25 points: the two feature operands and the
    output move down one block of rows per point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- ONE STORED ENTRY IS THE LAYER'S ENTRY. Let the loaded blocks be rows t·2000 … of two feature arrays `A`, `X`, and the
    weights and the bias the arrays `WL`, `WR`, `B` themselves. Then what the body stores at block position `y` is the
    layer of the arrays at the array position `i` that sits `y` below the block's first row. -/
theorem block_entry (A X : FVec Ideal S50000x128 .f32) (WL WR : FVec Ideal S128x256 .f32) (B : FVec Ideal S1x256 .f32)
    (a x : Vec Ideal S2000x128 .f32) (wl wr : Vec Ideal S128x256 .f32) (b : Vec Ideal S1x256 .f32) (t : Nat)
    (ha : ∀ (p : Fin 2000) (k : Fin 128) (r : Fin 50000), r.val = t * 2000 + p.val → a (ix2 p k) = A (ix2 r k))
    (hx : ∀ (p : Fin 2000) (k : Fin 128) (r : Fin 50000), r.val = t * 2000 + p.val → x (ix2 p k) = X (ix2 r k))
    (hwl : ∀ (k : Fin 128) (q : Fin 256), wl (ix2 k q) = WL (ix2 k q))
    (hwr : ∀ (k : Fin 128) (q : Fin 256), wr (ix2 k q) = WR (ix2 k q))
    (hb : ∀ q : Fin 256, b (ix2 (0 : Fin 1) q) = B (ix2 (0 : Fin 1) q))
    (y : S2000x256.Idx) (i : S50000x256.Idx) (hi0 : (i 0).val = t * 2000 + (y 0).val) (hi1 : (i 1).val = (y 1).val) :
    k0_pay1 (F := Ideal) a x wl wr b y = Cert.Sage.layer A X WL WR (fun q => B (ix2 (0 : Fin 1) q)) i := by
  obtain ⟨p, q, rfl⟩ : ∃ (p : Fin 2000) (q : Fin 256), y = ix2 p q := ⟨y 0, y 1, eq_ix2 y⟩
  obtain ⟨r, c, rfl⟩ : ∃ (r : Fin 50000) (c : Fin 256), i = ix2 r c := ⟨i 0, i 1, eq_ix2 i⟩
  have hc : c = q := Fin.ext hi1
  subst hc
  rw [Cert.Sage.Body.pay_entry, Cert.Sage.layer_apply]
  exact Cert.Sage.entry_congr a x A X wl wr WL WR _ _ p r c (fun k => ha p k r hi0) (fun k => hx p k r hi0)
    (fun k => hwl k c) (fun k => hwr k c) (hb c)

/-! ## The operand blocks, read off ANY arrays

Each lemma is about a window's rectangle only: the array is a variable, so nothing is ever computed from the
program's own arrays. -/

/-- Block `t` of a 50000 × 128 array read through operand 0's window: block position (p, k) is array position
    (t·2000 + p, k). -/
theorem read_rows0 (t : Fin cfg0.N) (A : S50000x128.Idx → EReal) (p : Fin 2000) (k : Fin 128) (r : Fin 50000)
    (hr : r.val = t.val * 2000 + p.val) :
    ((cfg0.win 0).blk t).view.read (Elt Ideal) A (ix2 p k) = A (ix2 r k) := by
  obtain ⟨e00, e01, -⟩ := idx_facts t
  rw [View.read_apply]
  show A _ = A (ix2 r k)
  congr 1
  funext a
  apply Fin.ext
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- The same through operand 1's window. -/
theorem read_rows1 (t : Fin cfg0.N) (X : S50000x128.Idx → EReal) (p : Fin 2000) (k : Fin 128) (r : Fin 50000)
    (hr : r.val = t.val * 2000 + p.val) :
    ((cfg0.win 1).blk t).view.read (Elt Ideal) X (ix2 p k) = X (ix2 r k) := by
  obtain ⟨-, -, e10, e11, -⟩ := idx_facts t
  rw [View.read_apply]
  show X _ = X (ix2 r k)
  congr 1
  funext a
  apply Fin.ext
  match a with
  | ⟨0, _⟩ => show win0_1.index t (0 : Fin 2) * 2000 + 1 * p.val = r.val; rw [e10, hr]; omega
  | ⟨1, _⟩ => show win0_1.index t (1 : Fin 2) * 128 + 1 * k.val = k.val; rw [e11]; omega

/-- Operand 2's one block is the whole 128 × 256 array at every point. -/
theorem read_whole2 (t : Fin cfg0.N) (W : S128x256.Idx → EReal) (k : Fin 128) (q : Fin 256) :
    ((cfg0.win 2).blk t).view.read (Elt Ideal) W (ix2 k q) = W (ix2 k q) := by
  obtain ⟨-, -, -, -, e20, e21, -⟩ := idx_facts t
  rw [View.read_apply]
  show W _ = W (ix2 k q)
  congr 1
  funext a
  apply Fin.ext
  match a with
  | ⟨0, _⟩ => show win0_2.index t (0 : Fin 2) * 128 + 1 * k.val = k.val; rw [e20]; omega
  | ⟨1, _⟩ => show win0_2.index t (1 : Fin 2) * 256 + 1 * q.val = q.val; rw [e21]; omega

/-- Operand 3's one block likewise. -/
theorem read_whole3 (t : Fin cfg0.N) (W : S128x256.Idx → EReal) (k : Fin 128) (q : Fin 256) :
    ((cfg0.win 3).blk t).view.read (Elt Ideal) W (ix2 k q) = W (ix2 k q) := by
  obtain ⟨-, -, -, -, -, -, e30, e31, -⟩ := idx_facts t
  rw [View.read_apply]
  show W _ = W (ix2 k q)
  congr 1
  funext a
  apply Fin.ext
  match a with
  | ⟨0, _⟩ => show win0_3.index t (0 : Fin 2) * 128 + 1 * k.val = k.val; rw [e30]; omega
  | ⟨1, _⟩ => show win0_3.index t (1 : Fin 2) * 256 + 1 * q.val = q.val; rw [e31]; omega

/-- Operand 4's one block is the whole 1 × 256 array at every point. -/
theorem read_whole4 (t : Fin cfg0.N) (B : S1x256.Idx → EReal) (q : Fin 256) :
    ((cfg0.win 4).blk t).view.read (Elt Ideal) B (ix2 (0 : Fin 1) q) = B (ix2 (0 : Fin 1) q) := by
  obtain ⟨-, -, -, -, -, -, -, -, e40, e41, -⟩ := idx_facts t
  rw [View.read_apply]
  show B _ = B (ix2 (0 : Fin 1) q)
  congr 1
  funext a
  apply Fin.ext
  match a with
  | ⟨0, _⟩ => show win0_4.index t (0 : Fin 2) * 1 + 1 * 0 = 0; rw [e40]
  | ⟨1, _⟩ => show win0_4.index t (1 : Fin 2) * 256 + 1 * q.val = q.val; rw [e41]; omega

/-! ## What a point writes back -/

/-- WHAT POINT `t` WRITES BACK, against ANY whole-array function `G` whose entry at the array position sitting `y` below
    the block's first row is what the body stores at block position `y`: the write-back is block `t` of `G`. -/
theorem flushed_eq_of (c : Dev nD) (t : Fin cfg0.N) (G : S50000x256.Idx → EReal)
    (hG : ∀ (y : S2000x256.Idx) (i : S50000x256.Idx), (i 0).val = t.val * 2000 + (y 0).val → (i 1).val = (y 1).val →
      k0_pay1 (F := Ideal) (iblk m c 0 t) (iblk m c 1 t) (iblk m c 2 t) (iblk m c 3 t) (iblk m c 4 t) y = G i) :
    (dats m 0 c).flushed 5 t = ((cfg0.win 5).blk t).view.read (Elt Ideal) G := by
  rw [Value.flushed5]
  unfold out0_5
  rw [View.canon_unit_zero hz]
  simp only [View.ld_unit_zero (S := S2000x128) hz, View.ld_unit_zero (S := S128x256) hz, View.ld_unit_zero (S := S1x256) hz]
  obtain ⟨-, -, -, -, -, -, -, -, -, -, e50, e51⟩ := idx_facts t
  funext j
  show k0_pay1 (F := Ideal) (iblk m c 0 t) (iblk m c 1 t) (iblk m c 2 t) (iblk m c 3 t) (iblk m c 4 t) j
    = G (((cfg0.win 5).blk t).view.emb j)
  refine hG j _ ?_ ?_
  · show win0_5.index t (0 : Fin 2) * 2000 + 1 * (j 0).val = t.val * 2000 + (j 0).val
    rw [e50]; omega
  · show win0_5.index t (1 : Fin 2) * 256 + 1 * (j 1).val = (j 1).val
    rw [e51]; omega

/-- The layer of the five operand arrays as the call finds them: the whole output array as one function. (Operand 0 holds
    the aggregated features, 1 the node features, 2 and 3 the weights, 4 the bias row.) -/
def result (c : Dev nD) : S50000x256.Idx → EReal :=
  Cert.Sage.layer (V m c (Pipeline.arrRef spec0 0)) (V m c (Pipeline.arrRef spec0 1)) (V m c (Pipeline.arrRef spec0 2))
    (V m c (Pipeline.arrRef spec0 3)) (fun q => (V m c (Pipeline.arrRef spec0 4) : S1x256.Idx → EReal) (ix2 (0 : Fin 1) q))

/-- WHAT POINT `t` WRITES BACK is block `t` of `result`: the statement concerns the windows' rectangles only, so it holds
    of any five arrays, the call's among them. -/
theorem flushed_eq (c : Dev nD) (t : Fin cfg0.N) :
    (dats m 0 c).flushed 5 t = ((cfg0.win 5).blk t).view.read (Elt Ideal) (result m c) := by
  refine flushed_eq_of m c t (result m c) (fun y i h0 h1 => ?_)
  unfold result iblk
  generalize V m c (Pipeline.arrRef spec0 0) = A
  generalize V m c (Pipeline.arrRef spec0 1) = X
  generalize V m c (Pipeline.arrRef spec0 2) = WL
  generalize V m c (Pipeline.arrRef spec0 3) = WR
  generalize V m c (Pipeline.arrRef spec0 4) = B
  exact block_entry A X WL WR B (((cfg0.win 0).blk t).view.read (Elt Ideal) A) (((cfg0.win 1).blk t).view.read (Elt Ideal) X)
    (((cfg0.win 2).blk t).view.read (Elt Ideal) WL) (((cfg0.win 3).blk t).view.read (Elt Ideal) WR)
    (((cfg0.win 4).blk t).view.read (Elt Ideal) B) t.val
    (fun p k r hr => read_rows0 t A p k r hr) (fun p k r hr => read_rows1 t X p k r hr)
    (fun k q => read_whole2 t WL k q) (fun k q => read_whole3 t WR k q) (fun q => read_whole4 t B q) y i h0 h1

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- THE BLOCKS TILE THE ARRAY: node `r` is written by point r / 2000. -/
theorem cover (i : S50000x256.Idx) : ∃ t : Fin cfg0.N, (cfg0.win 5).flush t = true ∧ i ∈ ((cfg0.win 5).blk t).view.set := by
  have h0 : (i 0).val < 50000 := (i 0).isLt
  have h1 : (i 1).val < 256 := (i 1).isLt
  have hN : grid0.N = 25 := N_0
  have ht : (i 0).val / 2000 < cfg0.N := by show (i 0).val / 2000 < grid0.N; rw [hN]; omega
  obtain ⟨-, -, -, -, -, -, -, -, -, -, e50, e51⟩ := idx_facts ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50']; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e51]; omega

/-- THE OUTPUT ARRAY after the run is `result`. -/
theorem final (c : Dev nD) : (dats m 0 c).arrAt 5 cfg0.N = result m c :=
  (dats m 0 c).arrAt_eq_of_cover 5 (result m c) (fun t _ => flushed_eq m c t) cover

/-- The run, read: the output array at the layer of the arrays the call found, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Sage.Kernel

end
-- ==== Proof.SageRef.lean ====
/-
  The reference computes the layer.

  The reference's result, read one operation at a time, is at entry (r, c)

      max ((Σₖ agg r k · W_l k c  +  b c)  +  Σₖ x r k · W_r k c) 0,

  where `agg` is the mean of the neighbours' features — a gather along the edges, a scatter-add into the
  destination nodes, a division by the clamped in-degree. Nothing here looks inside `agg`: it is carried as the one
  function `aggregate` of the node features and the edge list, and the kernel's program computes the very same
  function before its call. What is shown is that the reference's grouping of the three summands is the layer's
  (`Sage.entryBiasFirst_eq_entry`), once each operation's index arithmetic is written out by coordinates.
-/
import proofs.«167508_j60911226192365_1_alg».proof.Proof.Gen.ReferenceIdeal.Read
import proofs.«167508_j60911226192365_1_alg».proof.Proof.SageSpec
import Idealize.ShloMosaic.Lib.ValueIdx

noncomputable section

open scoped BigOperators

namespace Cert.Sage.Ref

open Cert.ReferenceIdeal Cert.ReferenceIdeal.Read Idealize.ShloMosaic Idealize.ShloMosaic.ValueIdx

/-- The aggregated neighbour features, as the reference's program computes them from the node features and the
    edge list: the mean over incoming edges of the source nodes' rows (a node with no incoming edge divides by one).
    Kept whole; no proof opens it. -/
def aggregate (x0 : (⟨S50000x128, .f32⟩ : BufTy).Contents (Elt Ideal)) (x1 : (⟨S2x800000, .i32⟩ : BufTy).Contents (Elt Ideal)) :
    (⟨S50000x128, .f32⟩ : BufTy).Contents (Elt Ideal) :=
  val_main_v22 (F := Ideal) x0 x1

/-- THE REFERENCE IS THE LAYER: its result stage is `Sage.layer` of the aggregate, the node features, the two weight
    matrices and the bias. The contraction of each product runs over the 128 input channels; the bias is broadcast
    along the nodes; the cut-off is against the zero word. -/
theorem result_eq_layer (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v29 (F := Ideal) x0 x1 x2 x3 x4 = Cert.Sage.layer (aggregate x0 x1) x0 x2 x4 (fun c => x3 (ix1 c)) := by
  funext i
  obtain ⟨r, c, rfl⟩ : ∃ (r : Fin 50000) (c : Fin 256), i = ix2 r c := ⟨i 0, i 1, eq_ix2 i⟩
  rw [Cert.Sage.layer_apply, ← Cert.Sage.entryBiasFirst_eq_entry]
  rw [val_main_v29_apply, val_main_v28_apply, val_main_v26_apply, val_main_v23_apply, val_main_v27_apply, val_main_v25_apply,
    val_main_v24_apply, val_main_call0_v0_apply, val_main_call0_cst_apply]
  have e1 : ∀ k : Fin 128, lidx_main_v23 (ix2 r c) k = ix2 r k := fun k => funext fun a => Fin.ext (by
    match a with | ⟨0, _⟩ => rfl | ⟨1, _⟩ => rfl)
  have e2 : ∀ k : Fin 128, ridx_main_v23 (ix2 r c) k = ix2 k c := fun k => funext fun a => Fin.ext (by
    match a with | ⟨0, _⟩ => rfl | ⟨1, _⟩ => rfl)
  have e3 : ∀ k : Fin 128, lidx_main_v27 (ix2 r c) k = ix2 r k := fun k => funext fun a => Fin.ext (by
    match a with | ⟨0, _⟩ => rfl | ⟨1, _⟩ => rfl)
  have e4 : ∀ k : Fin 128, ridx_main_v27 (ix2 r c) k = ix2 k c := fun k => funext fun a => Fin.ext (by
    match a with | ⟨0, _⟩ => rfl | ⟨1, _⟩ => rfl)
  have e5 : idx_main_v24 (idx_main_v25 (ix2 r c)) = ix1 c := funext fun a => Fin.ext (by
    match a with | ⟨0, _⟩ => rfl)
  simp only [e1, e2, e3, e4, e5]
  rfl

end Cert.Sage.Ref

end
-- ==== Proof.SageHost.lean ====
/-
  What the kernel's program has computed when its call is entered.

  Before the call the program forms, on the host, the aggregated neighbour features (operand 0 of the call) and the
  bias as a one-row matrix (operand 4). The first is, operation for operation, the function `Sage.Ref.aggregate` of the
  node features and the edge list that the reference also computes: it is identified as that one function and never
  opened. The second is the bias vector with a unit axis in front, so its entry (0, q) is the vector's entry q.
-/
import proofs.«167508_j60911226192365_1_alg».proof.Proof.Gen.KernelIdeal.Frame
import proofs.«167508_j60911226192365_1_alg».proof.Proof.SageRef
import Idealize.ShloMosaic.Lib.StableHlo.Run
import Idealize.ShloMosaic.Lib.ValueLayout

noncomputable section

namespace Cert.Sage.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- Operand 0 of the call is the aggregate of the launch-time node features and edge list. -/
theorem V_aggregate (c : Dev nD) :
    (V m c main_v22 : S50000x128.Idx → EReal)
      = Cert.Sage.Ref.aggregate (m ((c : Thread nD τ).loc main_arg0)) (m ((c : Thread nD τ).loc main_arg1)) := by
  dsimp only [Gen.V, Gen.hostOps0]
  after_results_simp <;> rfl

set_option maxHeartbeats 2000000 in
/-- Operand 4 of the call is the bias vector recast as a 1 × 256 matrix. -/
theorem V_bias (c : Dev nD) :
    (V m c main_v23 : S1x256.Idx → EReal)
      = shapeCast S1x256 (m ((c : Thread nD τ).loc main_arg3) : S256.Idx → EReal) shapeCasts_S256_S1x256 := by
  dsimp only [Gen.V, Gen.hostOps0]
  after_results_simp <;> rfl

/-- Its entry (0, q) is the bias at channel q. -/
theorem V_bias_apply (c : Dev nD) (q : Fin 256) :
    (V m c main_v23 : S1x256.Idx → EReal) (ix2 (0 : Fin 1) q)
      = (m ((c : Thread nD τ).loc main_arg3) : S256.Idx → EReal) (ix1 q) := by
  rw [V_bias]
  exact shapeCast_a_1a_apply _ _ 0 q

/-! ## The same facts, spelt with the call's own operand references

The call's operands 0 … 4 are the aggregate, the node features, the two weight matrices and the bias row. -/

theorem op0_eq (c : Dev nD) :
    (V m c (Pipeline.arrRef spec0 0) : S50000x128.Idx → EReal)
      = Cert.Sage.Ref.aggregate (m ((c : Thread nD τ).loc main_arg0)) (m ((c : Thread nD τ).loc main_arg1)) :=
  V_aggregate m c

theorem op1_eq (c : Dev nD) : V m c (Pipeline.arrRef spec0 1) = m ((c : Thread nD τ).loc main_arg0) := V_main_arg0 m c

theorem op2_eq (c : Dev nD) : V m c (Pipeline.arrRef spec0 2) = m ((c : Thread nD τ).loc main_arg2) := V_main_arg2 m c

theorem op3_eq (c : Dev nD) : V m c (Pipeline.arrRef spec0 3) = m ((c : Thread nD τ).loc main_arg4) := V_main_arg4 m c

theorem op4_apply (c : Dev nD) (q : Fin 256) :
    (V m c (Pipeline.arrRef spec0 4) : S1x256.Idx → EReal) (ix2 (0 : Fin 1) q)
      = (m ((c : Thread nD τ).loc main_arg3) : S256.Idx → EReal) (ix1 q) :=
  V_bias_apply m c q

end Cert.Sage.Host

end
-- ==== Proof.SageClaims.lean ====
/-
  The five claims.

  The three frames: the two kernel programs terminate and leave their arguments alone by the generated frame proofs;
  the reference does by its generated run. The idealization rewrote nothing, so there is nothing to preserve.

  The value claim. After its run the kernel's output array is the layer of the arrays its call found
  (`Sage.Kernel.run`); those arrays are the aggregate of the launch-time node features and edge list, the node
  features, the two weight matrices and the bias (`result_eq`). After its run the reference's result is the same
  layer of the same five things (`Sage.Ref.result_eq_layer`), its own aggregate being the same function of the same
  two arguments. So from memories that agree on the arguments the two results are one array of extended reals.
-/
import proofs.«167508_j60911226192365_1_alg».proof.Defs
import proofs.«167508_j60911226192365_1_alg».proof.Proof.Gen.Pre_finite_inputs
import proofs.«167508_j60911226192365_1_alg».proof.Proof.Gen.Kernel.Frame
import proofs.«167508_j60911226192365_1_alg».proof.Proof.Gen.KernelIdeal.Frame
import proofs.«167508_j60911226192365_1_alg».proof.Proof.Gen.ReferenceIdeal.Run
import proofs.«167508_j60911226192365_1_alg».proof.Proof.Gen.ReferenceIdeal.Read
import proofs.«167508_j60911226192365_1_alg».proof.Proof.SageValue
import proofs.«167508_j60911226192365_1_alg».proof.Proof.SageHost
import proofs.«167508_j60911226192365_1_alg».proof.Proof.SageRef

noncomputable section

namespace Cert.Sage.Claims

open Idealize.ShloMosaic Idealize.ShloMosaic.TcCoe Idealize.SL.Sem Idealize.ShloMosaic.ValueIdx

/-- The kernel's output array in terms of the launch memory: the layer of the aggregate, the node features, the weight
    matrices and the bias vector. -/
theorem result_eq (m : (ℓ : Loc Cert.KernelIdeal.nD Cert.KernelIdeal.τ Cert.KernelIdeal.sig) → Buf (Elt Ideal) ℓ)
    (c : Dev Cert.KernelIdeal.nD) :
    Cert.Sage.Kernel.result m c
      = Cert.Sage.layer
          (Cert.Sage.Ref.aggregate (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg4))
          (fun q => (m ((c : Thread Cert.KernelIdeal.nD Cert.KernelIdeal.τ).loc Cert.KernelIdeal.main_arg3) :
            Cert.KernelIdeal.S256.Idx → EReal) (ix1 q)) := by
  unfold Cert.Sage.Kernel.result
  rw [Cert.Sage.Host.op0_eq, Cert.Sage.Host.op1_eq, Cert.Sage.Host.op2_eq, Cert.Sage.Host.op3_eq]
  exact congrArg (Cert.Sage.layer _ _ _ _) (funext fun q => Cert.Sage.Host.op4_apply m c q)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer of the aggregate, the node features, the weights and the bias of the launch memory. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  show _ = Cert.Sage.Kernel.result m c
  rw [Cert.ReferenceIdeal.Read.val_main_v29_eq, Cert.Sage.Ref.result_eq_layer, result_eq m c,
    (hagree c).1, (hagree c).2.1, (hagree c).2.2.1, (hagree c).2.2.2.1, (hagree c).2.2.2.2]

end Cert.Sage.Claims

end
-- ==== Proof.lean ====
/-
  `Cert.Claim` for the mean-aggregating graph layer: a node's output is

      relu (mean of its in-neighbours' features · W_l  +  its own features · W_r  +  b).

  Both programs form the neighbour mean on the host with the same operations (a gather along the edges, a scatter-add
  into the destination nodes, a division by the in-degree clamped below at one); the kernel then does the two matrix
  products, the bias and the cut-off block by block over 25 blocks of 2000 nodes, the reference over all nodes at once
  and with the bias added before the second product rather than after it. On the extended reals the blocks are
  restrictions of one whole-array function, narrowing the products' operands changes nothing, and the order of the
  three summands does not matter, so the two results are one array.

  Proof/SageSpec.lean states the layer and the regrouping law; Proof/SageBody.lean reads the kernel body at an entry;
  Proof/SageValue.lean goes from the 25 blocks to the array; Proof/SageRef.lean reads the reference; Proof/SageHost.lean
  identifies what the host part hands to the call; Proof/SageClaims.lean states the five claims, assembled here behind
  the witnesses of the programs' stated side conditions.
-/
import proofs.«167508_j60911226192365_1_alg».proof.Defs
import proofs.«167508_j60911226192365_1_alg».proof.Proof.Gen.Kernel
import proofs.«167508_j60911226192365_1_alg».proof.Proof.Gen.KernelIdeal
import proofs.«167508_j60911226192365_1_alg».proof.Proof.Gen.ReferenceIdeal
import proofs.«167508_j60911226192365_1_alg».proof.Proof.Gen.Pre_finite_inputs
import proofs.«167508_j60911226192365_1_alg».proof.Proof.SageClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Sage.Claims.frame_kernel, Cert.Sage.Claims.frame_kernelIdeal, Cert.Sage.Claims.frame_referenceIdeal,
    Cert.Sage.Claims.preserves, Cert.Sage.Claims.algebraic⟩

end Cert.Proof

end
